-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S100000x128, .f32⟩
  | .hbm, ⟨50, _⟩ => ⟨S800000x1, .i32⟩
  | .hbm, ⟨51, _⟩ => ⟨S100000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S100000, .f32⟩
  | .hbm, ⟨56, _⟩ => ⟨S800000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S100000, .f32⟩
  | .hbm, ⟨71, _⟩ => ⟨S800000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  Two layers of a mean-aggregating graph convolution, on the extended reals.

  The node features are a [100000, 128] array. One layer takes the features x and an aggregate a of the
  features of each node's neighbours (any operator `agg` of the features and the edge list: the
  layer never looks inside it), and maps row n to

      out (n, o) = sum_k a (n, k) * wl (o, k)  +  sum_k x (n, k) * wr (o, k)  +  b o,

  a product with the TRANSPOSES of the two [128, 128] weight arrays plus a bias row. The first layer is followed
  by the gate s |-> s * logistic s, entry by entry; the second is not.

  The three summands of an entry can be added in either of two orders, ((A + X) + b) or ((A + b) + X):
  addition of extended reals is commutative and associative whatever infinities the summands are,
  so the two orders are one number and nothing has to be assumed finite.
-/
import Mathlib.Data.EReal.Operations
import Idealize.ShloMosaic.PureOps.Ideal
import Idealize.ShloMosaic.Lib.ValueIdx

noncomputable section

open scoped BigOperators

namespace Cert.SageSpec

open Idealize.ShloMosaic Idealize.ShloMosaic.ValueIdx

/-- Node features: one row of 128 extended reals per node. -/
abbrev Nodes : Type := (⟨2, ![100000, 128]⟩ : Shape).Idx → EReal
/-- A weight array, [out, in]. -/
abbrev Weight : Type := (⟨2, ![128, 128]⟩ : Shape).Idx → EReal
/-- A bias row. -/
abbrev Bias : Type := (⟨1, ![128]⟩ : Shape).Idx → EReal

/-- Entry `o` of one node's output row: the node's aggregate row `ar` against row `o` of `wl`, plus the node's own
    row `xr` against row `o` of `wr`, plus the bias `b`; the two products first, the bias last. -/
def denseEntry (ar xr : Fin 128 → EReal) (wl wr : Weight) (b : EReal) (o : Fin 128) : EReal :=
  ((∑ k : Fin 128, ar k * wl (ix2 o k)) + (∑ k : Fin 128, xr k * wr (ix2 o k))) + b

/-- The same entry with the bias added between the two products: addition of extended reals is commutative and
    associative, infinities included. -/
theorem bias_between (ar xr : Fin 128 → EReal) (wl wr : Weight) (b : EReal) (o : Fin 128) :
    ((∑ k : Fin 128, ar k * wl (ix2 o k)) + b) + (∑ k : Fin 128, xr k * wr (ix2 o k)) = denseEntry ar xr wl wr b o :=
  add_right_comm _ _ _

/-- The dense stage of a layer, array to array. -/
def dense (a x : Nodes) (wl wr : Weight) (b : Bias) : Nodes := fun i =>
  denseEntry (fun k => a (ix2 (i 0) k)) (fun k => x (ix2 (i 0) k)) wl wr (b (ix1 (i 1))) (i 1)

/-- The gate s * logistic s. -/
def gate (s : EReal) : EReal := s * Ideal.logistic s

/-- The gate applied to every entry. -/
def gated (v : Nodes) : Nodes := fun i => gate (v i)

/-- The first layer's output: the gated dense stage of the features and their aggregate. -/
def hidden {E : Type} (agg : Nodes → E → Nodes) (x : Nodes) (e : E) (wl wr : Weight) (b : Bias) : Nodes :=
  gated (dense (agg x e) x wl wr b)

/-- Both layers: the second dense stage, ungated, of the hidden features and THEIR aggregate over the same edges. -/
def twoLayers {E : Type} (agg : Nodes → E → Nodes) (x : Nodes) (e : E) (w1l w1r : Weight) (b1 : Bias)
    (w2l w2r : Weight) (b2 : Bias) : Nodes :=
  dense (agg (hidden agg x e w1l w1r b1) e) (hidden agg x e w1l w1r b1) w2l w2r b2

end Cert.SageSpec

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«105668_j14697378087216_1_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.KernelPayload.lean ====
/-
  What one grid point of each layer's kernel computes, entry by entry.

  A point of either kernel holds 2000 rows of the aggregate and of the features, both whole weight arrays and
  the bias as a [1, 128] row. At the exact (extended real) values a change of float format is the identity and
  each matrix product into a zero accumulator, contracting the SECOND axis of both operands, is a plain sum:
  entry (p, q) of the block is

      sum_k agg (p, k) * wl (q, k) + sum_k x (p, k) * wr (q, k) + bias (0, q),

  which the first layer's kernel multiplies by its logistic and the second stores as it is.
-/
import proofs.«105668_j14697378087216_1_alg».proof.Proof.Gen.KernelIdeal.Skeleton
import proofs.«105668_j14697378087216_1_alg».proof.Proof.SageSpec
import proofs.«105668_j14697378087216_1_alg».proof.Proof.LibRowReduceProducts
import Idealize.ShloMosaic.Lib.ValueLayout

noncomputable section

open scoped BigOperators

namespace Cert.KernelIdeal.Payload

open Cert.KernelIdeal Cert.KernelIdeal.Gen Idealize.ShloMosaic Idealize.ShloMosaic.ValueIdx Cert.SageSpec

/-- The three summands of a block's entry (p, q): two products with transposed weights into zero accumulators and the
    bias row laid over the 2000 rows. -/
theorem dense_block (y0 y1 : FVec Ideal S2000x128 .bf16) (z0 z1 : FVec Ideal S128x128 .bf16) (r : FVec Ideal S1x128 .f32)
    (p : Fin 2000) (q : Fin 128) :
    addf (addf (matmul dot_S2000x128_S128x128_S2000x128_1_1_0_0_n_n none y0 z0 (constant (F := Ideal) S2000x128 .f32 0x00000000#32))
        (matmul dot_S2000x128_S128x128_S2000x128_1_1_0_0_n_n none y1 z1 (constant (F := Ideal) S2000x128 .f32 0x00000000#32)))
      (broadcastTo S2000x128 r broadcasts_S1x128_S2000x128) (ix2 p q)
      = denseEntry (fun k => y0 (ix2 p k)) (fun k => y1 (ix2 p k)) z0 z1 (r (ix2 (0 : Fin 1) q)) q := by
  unfold denseEntry
  exact congrArg₂ (· + ·)
    (congrArg₂ (· + ·)
      (Cert.LibRowReduceProducts.matmulNT dot_S2000x128_S128x128_S2000x128_1_1_0_0_n_n rfl rfl rfl rfl rfl rfl none y0 z0 p q)
      (Cert.LibRowReduceProducts.matmulNT dot_S2000x128_S128x128_S2000x128_1_1_0_0_n_n rfl rfl rfl rfl rfl rfl none y1 z1 p q))
    (broadcastTo_1b_ab_apply r broadcasts_S1x128_S2000x128 p q)

/-- The first layer's stored value at (p, q): the dense entry, gated. -/
theorem pay0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = gate (denseEntry (fun k => x0 (ix2 p k)) (fun k => x1 (ix2 p k)) x2 x3 (x4 (ix2 (0 : Fin 1) q)) q) := by
  unfold k0_pay1
  simp only [shapeCast_self]
  exact congrArg gate (dense_block _ _ _ _ _ p q)

/-- The second layer's stored value at (p, q): the dense entry. -/
theorem pay1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = denseEntry (fun k => x0 (ix2 p k)) (fun k => x1 (ix2 p k)) x2 x3 (x4 (ix2 (0 : Fin 1) q)) q := by
  unfold k1_pay1
  simp only [shapeCast_self]
  exact dense_block _ _ _ _ _ p q

end Cert.KernelIdeal.Payload

end
-- ==== Proof.KernelBlocks.lean ====
/-
  From blocks to arrays: what each of the two kernel regions leaves in its result array.

  Each region runs over 50 grid points. Point t reads rows 2000 t … 2000 t + 1999 of the aggregate and of the
  features, the whole of both weight arrays and the one bias row, and writes the same rows of the result. An output
  row depends on the same row of the two inputs only, so what point t writes back is block t of ONE function of
  the whole arrays as the region found them: the dense stage of the layer (gated, in the first region). The 50 blocks
  tile the 100000 rows, so after the last point the result array IS that function.

  Everything is stated at a parameter V, the buffer contents at the region's entry; the run instantiates it.
-/
import proofs.«105668_j14697378087216_1_alg».proof.Proof.Gen.KernelIdeal.Frame
import proofs.«105668_j14697378087216_1_alg».proof.Proof.KernelPayload
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.SageSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias as a kernel holds it, one [1, 128] row, read as a bias row. -/
def biasOf (r : S1x128.Idx → EReal) : Bias := fun j => r (ix2 (0 : Fin 1) (j 0))

/-! ## Region 0 -/

/-- The first layer of the arrays region 0 finds: the aggregate in its first operand, the features, the two weight arrays and the bias row. -/
def layer0 (c : Dev nD) : Nodes :=
  gated (dense (V c main_v22) (V c main_arg0) (V c main_arg2) (V c main_arg3) (biasOf (V c main_v23)))

/-- The printed index maps over the grid's 50 points: the aggregate, the features and the output move together, block
    `t` at point `t`; the two weight arrays and the bias row stay at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` (rows 2000 t … 2000 t + 1999) of the layer's whole-array function. -/
theorem flushed_eq0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Cert.KernelIdeal.Payload.pay0_apply _ _ _ _ _ p q).trans ?_
  obtain ⟨f00, f01, f10, f11, f20, f21, f30, f31, f40, f41, f50, f51⟩ := idx_facts0 t
  have hN : cfg0.N = 50 := N_0
  have ht : t.val < 50 := hN ▸ t.isLt
  have hp : p.val < 2000 := p.isLt
  have hq : q.val < 128 := q.isLt
  -- the array index of the block's entry (p, q): row 2000 t + p, column q
  have hemb : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [View.read_apply, hemb]
  have e0 : (fun k : Fin 128 => iblk0 V c 0 t (ix2 p k)) = fun k => V c main_v22 (ix2 (⟨t.val * 2000 + p.val, by omega⟩ : Fin 100000) k) :=
    funext fun k => by
      show V c main_v22 (((cfg0.win 0).blk t).view.emb (ix2 p k)) = _
      refine congrArg (V c main_v22) (funext fun a => Fin.ext ?_)
      have hk : k.val < 128 := k.isLt
      match a with
      | ⟨0, _⟩ => show win0_0.index t (0 : Fin 2) * 2000 + 1 * p.val = t.val * 2000 + p.val; omega
      | ⟨1, _⟩ => show win0_0.index t (1 : Fin 2) * 128 + 1 * k.val = k.val; omega
  have e1 : (fun k : Fin 128 => iblk0 V c 1 t (ix2 p k)) = fun k => V c main_arg0 (ix2 (⟨t.val * 2000 + p.val, by omega⟩ : Fin 100000) k) :=
    funext fun k => by
      show V c main_arg0 (((cfg0.win 1).blk t).view.emb (ix2 p k)) = _
      refine congrArg (V c main_arg0) (funext fun a => Fin.ext ?_)
      have hk : k.val < 128 := k.isLt
      match a with
      | ⟨0, _⟩ => show win0_1.index t (0 : Fin 2) * 2000 + 1 * p.val = t.val * 2000 + p.val; omega
      | ⟨1, _⟩ => show win0_1.index t (1 : Fin 2) * 128 + 1 * k.val = k.val; omega
  have e2 : iblk0 V c 2 t = V c main_arg2 :=
    funext fun y => by
      show V c main_arg2 (((cfg0.win 2).blk t).view.emb y) = _
      refine congrArg (V c main_arg2) (funext fun a => Fin.ext ?_)
      match a with
      | ⟨0, _⟩ => show win0_2.index t (0 : Fin 2) * 128 + 1 * (y 0).val = (y 0).val; omega
      | ⟨1, _⟩ => show win0_2.index t (1 : Fin 2) * 128 + 1 * (y 1).val = (y 1).val; omega
  have e3 : iblk0 V c 3 t = V c main_arg3 :=
    funext fun y => by
      show V c main_arg3 (((cfg0.win 3).blk t).view.emb y) = _
      refine congrArg (V c main_arg3) (funext fun a => Fin.ext ?_)
      match a with
      | ⟨0, _⟩ => show win0_3.index t (0 : Fin 2) * 128 + 1 * (y 0).val = (y 0).val; omega
      | ⟨1, _⟩ => show win0_3.index t (1 : Fin 2) * 128 + 1 * (y 1).val = (y 1).val; omega
  have e4 : iblk0 V c 4 t (ix2 (0 : Fin 1) q) = V c main_v23 (ix2 (0 : Fin 1) q) := by
    show V c main_v23 (((cfg0.win 4).blk t).view.emb (ix2 (0 : Fin 1) q)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  rw [e0, e1, e2, e3, e4]
  rfl

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every row of the array lies in the block of the point `row / 2000`: the 50 blocks of 2000 rows tile the 100000 rows. -/
theorem cover0 (i : S100000x128.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  have hlt : (i 0).val / 2000 < cfg0.N := by rw [hN]; omega
  refine ⟨⟨(i 0).val / 2000, hlt⟩, flush0_5 _, ?_⟩
  obtain ⟨-, -, -, -, -, -, -, -, -, -, f50, f51⟩ := idx_facts0 ⟨(i 0).val / 2000, hlt⟩
  have g50 : win0_5.index ⟨(i 0).val / 2000, hlt⟩ (0 : Fin 2) = (i 0).val / 2000 := f50
  rw [mem_blk0]
  intro a
  match a with
  | ⟨0, _⟩ => show win0_5.index ⟨(i 0).val / 2000, hlt⟩ (0 : Fin 2) * 2000 ≤ (i 0).val ∧ (i 0).val < win0_5.index ⟨(i 0).val / 2000, hlt⟩ (0 : Fin 2) * 2000 + 2000; omega
  | ⟨1, _⟩ => show win0_5.index ⟨(i 0).val / 2000, hlt⟩ (1 : Fin 2) * 128 ≤ (i 1).val ∧ (i 1).val < win0_5.index ⟨(i 0).val / 2000, hlt⟩ (1 : Fin 2) * 128 + 128; omega

/-- After all 50 points the region's result array holds the layer's function of the arrays the region found. -/
theorem final0 (c : Dev nD) : (dat0 V c).arrAt 5 cfg0.N = layer0 V c :=
  (dat0 V c).arrAt_eq_of_cover 5 (layer0 V c) (fun t _ => flushed_eq0 V c t) (cover0)

/-! ## Region 1 -/

/-- The second layer of the arrays region 1 finds: the hidden features' aggregate, the hidden features (region 0's result), the two weight arrays and the bias row. -/
def layer1 (c : Dev nD) : Nodes :=
  dense (V c main_v43) (V c main_v24) (V c main_arg5) (V c main_arg6) (biasOf (V c main_v44))

/-- The printed index maps over the grid's 50 points: the aggregate, the features and the output move together, block
    `t` at point `t`; the two weight arrays and the bias row stay at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` (rows 2000 t … 2000 t + 1999) of the layer's whole-array function. -/
theorem flushed_eq1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Cert.KernelIdeal.Payload.pay1_apply _ _ _ _ _ p q).trans ?_
  obtain ⟨f00, f01, f10, f11, f20, f21, f30, f31, f40, f41, f50, f51⟩ := idx_facts1 t
  have hN : cfg1.N = 50 := N_1
  have ht : t.val < 50 := hN ▸ t.isLt
  have hp : p.val < 2000 := p.isLt
  have hq : q.val < 128 := q.isLt
  -- the array index of the block's entry (p, q): row 2000 t + p, column q
  have hemb : ((cfg1.win 5).blk t).view.emb (ix2 p q) = ix2 (⟨t.val * 2000 + p.val, by omega⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [View.read_apply, hemb]
  have e0 : (fun k : Fin 128 => iblk1 V c 0 t (ix2 p k)) = fun k => V c main_v43 (ix2 (⟨t.val * 2000 + p.val, by omega⟩ : Fin 100000) k) :=
    funext fun k => by
      show V c main_v43 (((cfg1.win 0).blk t).view.emb (ix2 p k)) = _
      refine congrArg (V c main_v43) (funext fun a => Fin.ext ?_)
      have hk : k.val < 128 := k.isLt
      match a with
      | ⟨0, _⟩ => show win1_0.index t (0 : Fin 2) * 2000 + 1 * p.val = t.val * 2000 + p.val; omega
      | ⟨1, _⟩ => show win1_0.index t (1 : Fin 2) * 128 + 1 * k.val = k.val; omega
  have e1 : (fun k : Fin 128 => iblk1 V c 1 t (ix2 p k)) = fun k => V c main_v24 (ix2 (⟨t.val * 2000 + p.val, by omega⟩ : Fin 100000) k) :=
    funext fun k => by
      show V c main_v24 (((cfg1.win 1).blk t).view.emb (ix2 p k)) = _
      refine congrArg (V c main_v24) (funext fun a => Fin.ext ?_)
      have hk : k.val < 128 := k.isLt
      match a with
      | ⟨0, _⟩ => show win1_1.index t (0 : Fin 2) * 2000 + 1 * p.val = t.val * 2000 + p.val; omega
      | ⟨1, _⟩ => show win1_1.index t (1 : Fin 2) * 128 + 1 * k.val = k.val; omega
  have e2 : iblk1 V c 2 t = V c main_arg5 :=
    funext fun y => by
      show V c main_arg5 (((cfg1.win 2).blk t).view.emb y) = _
      refine congrArg (V c main_arg5) (funext fun a => Fin.ext ?_)
      match a with
      | ⟨0, _⟩ => show win1_2.index t (0 : Fin 2) * 128 + 1 * (y 0).val = (y 0).val; omega
      | ⟨1, _⟩ => show win1_2.index t (1 : Fin 2) * 128 + 1 * (y 1).val = (y 1).val; omega
  have e3 : iblk1 V c 3 t = V c main_arg6 :=
    funext fun y => by
      show V c main_arg6 (((cfg1.win 3).blk t).view.emb y) = _
      refine congrArg (V c main_arg6) (funext fun a => Fin.ext ?_)
      match a with
      | ⟨0, _⟩ => show win1_3.index t (0 : Fin 2) * 128 + 1 * (y 0).val = (y 0).val; omega
      | ⟨1, _⟩ => show win1_3.index t (1 : Fin 2) * 128 + 1 * (y 1).val = (y 1).val; omega
  have e4 : iblk1 V c 4 t (ix2 (0 : Fin 1) q) = V c main_v44 (ix2 (0 : Fin 1) q) := by
    show V c main_v44 (((cfg1.win 4).blk t).view.emb (ix2 (0 : Fin 1) q)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  rw [e0, e1, e2, e3, e4]
  rfl

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every row of the array lies in the block of the point `row / 2000`: the 50 blocks of 2000 rows tile the 100000 rows. -/
theorem cover1 (i : S100000x128.Idx) :
    ∃ t : Fin cfg1.N, (cfg1.win 5).flush t = true ∧ i ∈ ((cfg1.win 5).blk t).view.set := by
  have hN : cfg1.N = 50 := N_1
  have hi0 : (i 0).val < 100000 := (i 0).isLt
  have hi1 : (i 1).val < 128 := (i 1).isLt
  have hlt : (i 0).val / 2000 < cfg1.N := by rw [hN]; omega
  refine ⟨⟨(i 0).val / 2000, hlt⟩, flush1_5 _, ?_⟩
  obtain ⟨-, -, -, -, -, -, -, -, -, -, f50, f51⟩ := idx_facts1 ⟨(i 0).val / 2000, hlt⟩
  have g50 : win1_5.index ⟨(i 0).val / 2000, hlt⟩ (0 : Fin 2) = (i 0).val / 2000 := f50
  rw [mem_blk1]
  intro a
  match a with
  | ⟨0, _⟩ => show win1_5.index ⟨(i 0).val / 2000, hlt⟩ (0 : Fin 2) * 2000 ≤ (i 0).val ∧ (i 0).val < win1_5.index ⟨(i 0).val / 2000, hlt⟩ (0 : Fin 2) * 2000 + 2000; omega
  | ⟨1, _⟩ => show win1_5.index ⟨(i 0).val / 2000, hlt⟩ (1 : Fin 2) * 128 ≤ (i 1).val ∧ (i 1).val < win1_5.index ⟨(i 0).val / 2000, hlt⟩ (1 : Fin 2) * 128 + 128; omega

/-- After all 50 points the region's result array holds the layer's function of the arrays the region found. -/
theorem final1 (c : Dev nD) : (dat1 V c).arrAt 5 cfg1.N = layer1 V c :=
  (dat1 V c).arrAt_eq_of_cover 5 (layer1 V c) (fun t _ => flushed_eq1 V c t) (cover1)

end Cert.KernelIdeal.Blocks

end
-- ==== Proof.KernelRun.lean ====
/-
  The idealized kernel program's run with its result array named.

  @main is four segments: the host operations that build the first aggregate, the first layer's region, the
  host operations that build the second aggregate from the first region's result, and the second layer's region.
  Every weakly fair execution ends with each unscoped buffer at the contents the last segment boundary gives it;
  in particular the result array is what the second region's write-backs leave, and the eight arguments are as
  launched.
-/
import proofs.«105668_j14697378087216_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the last
    segment boundary gives it (what the second region's write-backs leave) and the argument arrays as launched. -/
theorem run_named : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibLogisticGate.lean ====
/-
  The logistic gate on the extended reals.

  At the exact instance a float is an extended real and the logistic function is
  `logistic s = 1 / (1 + e^(-s))`, with `logistic ⊥ = 0` and `logistic ⊤ = 1`. Whatever `s` is — a
  real number or an infinity — its value lies in the interval `[0, 1]`: it is nonnegative and it is
  never `⊤`. Multiplication by such a factor distributes over EVERY sum of extended reals, the sums
  that meet an infinity included: `σ * (a + b) = σ * a + σ * b`. So a cell that gates a sum,
  `σ * (c + t)`, and a cell that gates the two summands with the same gate and then adds,
  `σ * c + σ * t`, hold the same extended real, with no finiteness assumed of `c`, `t` or `s`.

  The module also reads the expansion `1 / (1 + exp (-s))` written with the f32 word of the number
  one (`0x3F800000`) as that same logistic function, vector by vector: a program that spells the
  gate by negate, exponential, add and divide computes `logistic` at every index.

  Nothing here mentions a particular program: the shapes and the arrays are arbitrary.
-/
import Mathlib.Data.EReal.Operations
import Idealize.ShloMosaic.PureOps.Ideal
import Idealize.ShloMosaic.Lib.IdealHost

noncomputable section

namespace LogisticGate

open Idealize.ShloMosaic

/-- The logistic of an extended real is nonnegative: `0` at `⊥`, `1` at `⊤`, and the inverse of the
    positive real `1 + e^(-r)` at a real `r`. -/
theorem logistic_nonneg (s : EReal) : 0 ≤ Ideal.logistic s := by
  induction s using EReal.rec with
  | bot => rw [Ideal.logistic_bot]
  | coe r =>
    rw [Ideal.logistic_coe]
    have h : (0 : ℝ) ≤ (1 + Real.exp (-r))⁻¹ := (inv_pos.2 (by positivity)).le
    exact_mod_cast h
  | top => rw [Ideal.logistic_top]; exact zero_le_one

/-- The logistic of an extended real is never `⊤`: its values are `0`, `1` and real numbers. -/
theorem logistic_ne_top (s : EReal) : Ideal.logistic s ≠ ⊤ := by
  induction s using EReal.rec with
  | bot => rw [Ideal.logistic_bot]; exact EReal.zero_ne_top
  | coe r => rw [Ideal.logistic_coe]; exact EReal.coe_ne_top _
  | top => rw [Ideal.logistic_top, ← EReal.coe_one]; exact EReal.coe_ne_top _

/-- A logistic gate distributes over a sum of extended reals, infinities included: the factor is
    nonnegative and not `⊤`, which is all that distributivity on the extended reals asks of it. -/
theorem logistic_mul_add (s a b : EReal) :
    Ideal.logistic s * (a + b) = Ideal.logistic s * a + Ideal.logistic s * b :=
  EReal.left_distrib_of_nonneg_of_ne_top (logistic_nonneg s) (logistic_ne_top s) a b

/-- The expansion `1 / (1 + exp (-s))`, both ones the f32 word `0x3F800000`, is the logistic of `s`:
    the word is the number one, and the quotient is the definition of the logistic function. -/
theorem one_div_one_add_exp_neg (s : EReal) :
    Ideal.div (Ideal.ofBits .f32 0x3F800000#32) (Ideal.ofBits .f32 0x3F800000#32 + Ideal.exp (-s))
      = Ideal.logistic s := by
  rw [Ideal.ofBits_one_f32]; rfl

end LogisticGate

end
-- ==== Proof.ReferenceValue.lean ====
/-
  What the reference program computes, read as the two-layer network.

  The reference's host operations, one at a time: the mean of the neighbours' rows along the edge list (a gather of
  the source rows, a scatter-add onto the destination rows, a division by the clamped in-degree) — kept whole here as
  the operator `segMean`, since both layers and both programs apply the same one —, then per layer a product with the
  transposed left weights, the bias row laid over all rows, a product of the features with the transposed right
  weights, added in that order; after the first layer the gate written as x * (1 / (1 + exp (-x))).

  Entry by entry each product is a sum over the 128 input features, the expansion 1 / (1 + exp (-x)) with the word
  of the number one is the logistic function, and the bias added between the two products or after them gives one
  number: the result is the two-layer network of the specification.
-/
import proofs.«105668_j14697378087216_1_alg».proof.Proof.Gen.ReferenceIdeal.Read
import proofs.«105668_j14697378087216_1_alg».proof.Proof.SageSpec
import proofs.«105668_j14697378087216_1_alg».proof.Proof.LibLogisticGate

noncomputable section

open scoped BigOperators

namespace Cert.ReferenceIdeal.RefValue

open Cert.ReferenceIdeal Cert.ReferenceIdeal.Read Idealize.ShloMosaic Idealize.ShloMosaic.ValueIdx Cert.SageSpec

/-- The edge list: two rows of 800000 node numbers, sources then destinations. -/
abbrev Edges : Type := (⟨S2x800000, .i32⟩ : BufTy).Contents (Elt Ideal)

/-- The mean over each node's incoming edges of the source nodes' rows (divided by the in-degree clamped below at one):
    the reference's own host operations, applied to any feature array. -/
def segMean (z : Nodes) (e : Edges) : Nodes := val_main_v22 (F := Ideal) z e

/-! ## The index functions of the products, the transposes and the bias broadcasts, by coordinates -/

theorem lidx24 (i : S100000x128.Idx) (k : Fin 128) : lidx_main_v24 i k = ix2 (i 0) k :=
  funext fun a => Fin.ext (by match a with | ⟨0, _⟩ => rfl | ⟨1, _⟩ => rfl)
theorem ridx24 (i : S100000x128.Idx) (k : Fin 128) : idx_main_v23 (ridx_main_v24 i k) = ix2 (i 1) k :=
  funext fun a => Fin.ext (by match a with | ⟨0, _⟩ => rfl | ⟨1, _⟩ => rfl)
theorem lidx29 (i : S100000x128.Idx) (k : Fin 128) : lidx_main_v29 i k = ix2 (i 0) k :=
  funext fun a => Fin.ext (by match a with | ⟨0, _⟩ => rfl | ⟨1, _⟩ => rfl)
theorem ridx29 (i : S100000x128.Idx) (k : Fin 128) : idx_main_v28 (ridx_main_v29 i k) = ix2 (i 1) k :=
  funext fun a => Fin.ext (by match a with | ⟨0, _⟩ => rfl | ⟨1, _⟩ => rfl)
theorem lidx58 (i : S100000x128.Idx) (k : Fin 128) : lidx_main_v58 i k = ix2 (i 0) k :=
  funext fun a => Fin.ext (by match a with | ⟨0, _⟩ => rfl | ⟨1, _⟩ => rfl)
theorem ridx58 (i : S100000x128.Idx) (k : Fin 128) : idx_main_v57 (ridx_main_v58 i k) = ix2 (i 1) k :=
  funext fun a => Fin.ext (by match a with | ⟨0, _⟩ => rfl | ⟨1, _⟩ => rfl)
theorem lidx63 (i : S100000x128.Idx) (k : Fin 128) : lidx_main_v63 i k = ix2 (i 0) k :=
  funext fun a => Fin.ext (by match a with | ⟨0, _⟩ => rfl | ⟨1, _⟩ => rfl)
theorem ridx63 (i : S100000x128.Idx) (k : Fin 128) : idx_main_v62 (ridx_main_v63 i k) = ix2 (i 1) k :=
  funext fun a => Fin.ext (by match a with | ⟨0, _⟩ => rfl | ⟨1, _⟩ => rfl)
theorem bidx26 (i : S100000x128.Idx) : idx_main_v25 (idx_main_v26 i) = ix1 (i 1) :=
  funext fun a => Fin.ext (by match a with | ⟨0, _⟩ => rfl)
theorem bidx60 (i : S100000x128.Idx) : idx_main_v59 (idx_main_v60 i) = ix1 (i 1) :=
  funext fun a => Fin.ext (by match a with | ⟨0, _⟩ => rfl)

/-! ## The first layer -/

/-- Before the gate: the dense stage of the features and their aggregate. -/
theorem v30_eq (x0 : Nodes) (x1 : Edges) (x2 x3 : Weight) (x4 : Bias) :
    val_main_v30 (F := Ideal) x0 x1 x2 x3 x4 = dense (segMean x0 x1) x0 x2 x3 x4 := by
  funext i
  rw [val_main_v30_apply, val_main_v27_apply, val_main_v24_apply, val_main_v29_apply, val_main_v26_apply, val_main_v25_apply]
  simp only [val_main_v23_apply, val_main_v28_apply, lidx24, ridx24, lidx29, ridx29, bidx26]
  exact bias_between _ _ _ _ _ _

/-- The first layer's result: the expansion of the gate is the logistic function. -/
theorem v37_eq (x0 : Nodes) (x1 : Edges) (x2 x3 : Weight) (x4 : Bias) :
    val_main_v37 (F := Ideal) x0 x1 x2 x3 x4 = hidden segMean x0 x1 x2 x3 x4 := by
  funext i
  rw [val_main_v37_apply, val_main_v36_apply, val_main_v35_apply, val_main_cst_5_apply, val_main_v34_apply,
    val_main_v33_apply, val_main_cst_4_apply, val_main_v32_apply, val_main_v31_apply, v30_eq]
  simp only [Ideal.mulf_def, Ideal.hostDivf_def, Ideal.ofBits_def, Ideal.addf_def, Ideal.hostUnary_exp_def, Ideal.hostNegf_def,
    Ideal.negf_def, LogisticGate.one_div_one_add_exp_neg]
  rfl

/-! ## The second layer -/

/-- The second aggregate is the same operator applied to the first layer's result, along the same edges. -/
theorem v56_eq (x0 : Nodes) (x1 : Edges) (x2 x3 : Weight) (x4 : Bias) :
    val_main_v56 (F := Ideal) x0 x1 x2 x3 x4 = segMean (val_main_v37 (F := Ideal) x0 x1 x2 x3 x4) x1 := rfl

/-- The reference's result is the two-layer network. -/
theorem v64_eq (x0 : Nodes) (x1 : Edges) (x2 x3 : Weight) (x4 : Bias) (x5 x6 : Weight) (x7 : Bias) :
    val_main_v64 (F := Ideal) x0 x1 x2 x3 x4 x5 x6 x7 = twoLayers segMean x0 x1 x2 x3 x4 x5 x6 x7 := by
  funext i
  rw [val_main_v64_apply, val_main_v61_apply, val_main_v58_apply, val_main_v63_apply, val_main_v60_apply, val_main_v59_apply]
  simp only [val_main_v57_apply, val_main_v62_apply, lidx58, ridx58, lidx63, ridx63, bidx60]
  rw [v56_eq, v37_eq]
  exact bias_between _ _ _ _ _ _

end Cert.ReferenceIdeal.RefValue

end
-- ==== Proof.KernelValue.lean ====
/-
  The idealized kernel program's result array, as the two-layer network of its arguments.

  The contents of every buffer at each segment boundary are a fold through @main. The host operations before the first
  region leave the aggregate of the features (the SAME gather, scatter-add and division the reference applies — as
  terms the two are equal by unfolding), the reshaped bias row, and the arguments untouched; the first region leaves the
  gated dense stage of these in its result array; the host operations between the regions build the aggregate of
  THAT array along the same edges and reshape the second bias; the second region leaves the ungated dense stage. The
  bias a kernel sees as a [1, 128] row is the [128] argument read at its second coordinate.
-/
import proofs.«105668_j14697378087216_1_alg».proof.Proof.KernelBlocks
import proofs.«105668_j14697378087216_1_alg».proof.Proof.KernelRun
import proofs.«105668_j14697378087216_1_alg».proof.Proof.ReferenceValue
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.SageSpec
open Cert.KernelIdeal.Blocks (biasOf layer0 layer1 final0 final1)
open Cert.ReferenceIdeal.RefValue (segMean)

variable (m : (ℓ : Loc nD τ sig) → Buf (Elt Ideal) ℓ) (ρ : Dev nD → PrngReg)

/-- A [128] bias reshaped to the [1, 128] row a kernel loads, read back as a bias row, is the bias. -/
theorem biasOf_reshape (b : S128.Idx → EReal) : biasOf (shapeCast S1x128 b shapeCasts_S128_S1x128) = b :=
  funext fun j => by
    rw [eq_ix1 j]
    exact shapeCast_a_1a_apply b shapeCasts_S128_S1x128 (0 : Fin 1) (j 0)

/-! ## At the first region's entry -/

theorem V1_agg (c : Dev nD) : V1 m ρ c main_v22 = segMean (m ((c.tc : Thread nD τ).loc main_arg0)) (m ((c.tc : Thread nD τ).loc main_arg1)) := by
  show StableHlo.after hostOps0 (W0 m ρ c) (Proc.devRef .tc main_v22) = _
  after_results_simp
  rfl
theorem V1_arg0 (c : Dev nD) : V1 m ρ c main_arg0 = (m ((c.tc : Thread nD τ).loc main_arg0)) := by
  show StableHlo.after hostOps0 (W0 m ρ c) (Proc.devRef .tc main_arg0) = _
  after_results
theorem V1_arg2 (c : Dev nD) : V1 m ρ c main_arg2 = (m ((c.tc : Thread nD τ).loc main_arg2)) := by
  show StableHlo.after hostOps0 (W0 m ρ c) (Proc.devRef .tc main_arg2) = _
  after_results
theorem V1_arg3 (c : Dev nD) : V1 m ρ c main_arg3 = (m ((c.tc : Thread nD τ).loc main_arg3)) := by
  show StableHlo.after hostOps0 (W0 m ρ c) (Proc.devRef .tc main_arg3) = _
  after_results
theorem V1_bias (c : Dev nD) : V1 m ρ c main_v23 = shapeCast S1x128 (m ((c.tc : Thread nD τ).loc main_arg4)) shapeCasts_S128_S1x128 := by
  show StableHlo.after hostOps0 (W0 m ρ c) (Proc.devRef .tc main_v23) = _
  after_results
  rfl

/-- The first region's result array: the hidden features. -/
theorem region0_result (c : Dev nD) : (dat0 (V1 m ρ) c).arrAt 5 cfg0.N = (Cert.SageSpec.hidden segMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  rw [final0]
  unfold layer0 Cert.SageSpec.hidden
  rw [V1_agg, V1_arg0, V1_arg2, V1_arg3, V1_bias, biasOf_reshape]

/-! ## Between the regions -/

theorem W2_hidden (c : Dev nD) : W2 m ρ c (Proc.devRef .tc main_v24) = (Cert.SageSpec.hidden segMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (W2_arr m ρ c 5).trans (region0_result m ρ c)
theorem W2_src (c : Dev nD) : W2 m ρ c (Proc.devRef .tc main_v1)
    = shapeCast S800000 (extractStridedSlice S1x800000 ![0, 0] (m ((c.tc : Thread nD τ).loc main_arg1)) slices_S2x800000_S1x800000_0_0) shapeCasts_S1x800000_S800000 := by
  refine (W2_of_ne m ρ c main_v1 (by decide)).trans ?_
  show StableHlo.after hostOps0 (W0 m ρ c) (Proc.devRef .tc main_v1) = _
  after_results
  rfl
theorem W2_dst (c : Dev nD) : W2 m ρ c (Proc.devRef .tc main_v3)
    = shapeCast S800000 (extractStridedSlice S1x800000 ![1, 0] (m ((c.tc : Thread nD τ).loc main_arg1)) slices_S2x800000_S1x800000_1_0) shapeCasts_S1x800000_S800000 := by
  refine (W2_of_ne m ρ c main_v3 (by decide)).trans ?_
  show StableHlo.after hostOps0 (W0 m ρ c) (Proc.devRef .tc main_v3) = _
  after_results
  rfl
theorem W2_arg5 (c : Dev nD) : W2 m ρ c (Proc.devRef .tc main_arg5) = (m ((c.tc : Thread nD τ).loc main_arg5)) := by
  refine (W2_of_ne m ρ c main_arg5 (by decide)).trans ?_
  show StableHlo.after hostOps0 (W0 m ρ c) (Proc.devRef .tc main_arg5) = _
  after_results
theorem W2_arg6 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results
theorem W2_arg7 (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results

/-! ## At the second region's entry -/

theorem V3_agg (c : Dev nD) : V3 m ρ c main_v43 = segMean (Cert.SageSpec.hidden segMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  show StableHlo.after hostOps1 (W2 m ρ c) (Proc.devRef .tc main_v43) = _
  after_results_simp
  rw [W2_src, W2_dst, W2_hidden]
  rfl
theorem V3_hidden (c : Dev nD) : V3 m ρ c main_v24 = (Cert.SageSpec.hidden segMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps1 (W2 m ρ c) (Proc.devRef .tc main_v24) = _
  after_results
  exact W2_hidden m ρ c
theorem V3_arg5 (c : Dev nD) : V3 m ρ c main_arg5 = (m ((c.tc : Thread nD τ).loc main_arg5)) := by
  show StableHlo.after hostOps1 (W2 m ρ c) (Proc.devRef .tc main_arg5) = _
  after_results
  exact W2_arg5 m ρ c
theorem V3_arg6 (c : Dev nD) : V3 m ρ c main_arg6 = (m ((c.tc : Thread nD τ).loc main_arg6)) := by
  show StableHlo.after hostOps1 (W2 m ρ c) (Proc.devRef .tc main_arg6) = _
  after_results
  exact W2_arg6 m ρ c
theorem V3_bias (c : Dev nD) : V3 m ρ c main_v44 = shapeCast S1x128 (m ((c.tc : Thread nD τ).loc main_arg7)) shapeCasts_S128_S1x128 := by
  show StableHlo.after hostOps1 (W2 m ρ c) (Proc.devRef .tc main_v44) = _
  after_results
  rw [W2_arg7]
  rfl

/-! ## The result -/

/-- What the last segment boundary gives the result array: both layers of the arguments. -/
theorem result (c : Dev nD) : W4 m ρ c (Proc.devRef .tc main_v45)
    = twoLayers segMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [final1]
  unfold layer1 twoLayers
  rw [V3_agg, V3_hidden, V3_arg5, V3_arg6, V3_bias, biasOf_reshape]

end Cert.KernelIdeal.KValue

end
-- ==== Proof.lean ====
/-
  Two layers of a mean-aggregating graph convolution (N = 100000 nodes, 128 features, 800000 edges): the kernel
  program against its reference, at the exact (extended real) values.

  Both programs aggregate the same way, on the host: gather the source nodes' rows, scatter-add them onto the
  destination nodes, divide by the in-degree clamped below at one. The kernel program then runs each layer's dense
  stage in a pipelined region over 50 blocks of 2000 rows,

      out (n, o) = (sum_k agg (n, k) * wl (o, k) + sum_k x (n, k) * wr (o, k)) + b o,

  gated by s * logistic s in the first layer, where the reference adds the bias between the two products,
  (A + b) + X, over the whole array, and writes the gate as x * (1 / (1 + exp (-x))). At the exact values a format
  change is the identity, both kinds of matrix product are plain sums, the expansion of the gate IS the logistic
  function, and (A + X) + b = (A + b) + X for all extended reals, infinities included. So no input needs to be finite
  for the value claim: the precondition is never opened.

  The modules: SageSpec (the network as a function, over any aggregation operator), KernelPayload (one block's
  arithmetic, entry by entry), KernelBlocks (each region's result array from its 50 blocks), KernelRun (the kernel
  program's run with the result array named), KernelValue (the buffer contents segment by segment: the result is the
  network), ReferenceValue (the reference's operations: the same network).
-/
import proofs.«105668_j14697378087216_1_alg».proof.Defs
import proofs.«105668_j14697378087216_1_alg».proof.Proof.Gen.Kernel
import proofs.«105668_j14697378087216_1_alg».proof.Proof.Gen.Kernel.Skeleton
import proofs.«105668_j14697378087216_1_alg».proof.Proof.Gen.Kernel.Launch
import proofs.«105668_j14697378087216_1_alg».proof.Proof.Gen.Kernel.Points
import proofs.«105668_j14697378087216_1_alg».proof.Proof.Gen.Kernel.Frame
import proofs.«105668_j14697378087216_1_alg».proof.Proof.Gen.KernelIdeal
import proofs.«105668_j14697378087216_1_alg».proof.Proof.Gen.KernelIdeal.Skeleton
import proofs.«105668_j14697378087216_1_alg».proof.Proof.Gen.KernelIdeal.Launch
import proofs.«105668_j14697378087216_1_alg».proof.Proof.Gen.KernelIdeal.Points
import proofs.«105668_j14697378087216_1_alg».proof.Proof.Gen.KernelIdeal.Frame
import proofs.«105668_j14697378087216_1_alg».proof.Proof.Gen.ReferenceIdeal
import proofs.«105668_j14697378087216_1_alg».proof.Proof.Gen.Pre_finite_inputs
import proofs.«105668_j14697378087216_1_alg».proof.Proof.Gen.ReferenceIdeal.Run
import proofs.«105668_j14697378087216_1_alg».proof.Proof.Gen.ReferenceIdeal.Read
import proofs.«105668_j14697378087216_1_alg».proof.Proof.KernelValue
import proofs.«105668_j14697378087216_1_alg».proof.Proof.ReferenceValue
import Idealize.ShloMosaic.Adequacy
import Idealize.ShloMosaic.Init

noncomputable section

namespace Cert.Proof

open Idealize.ShloMosaic Idealize.SL.Sem
open Cert.SageSpec (twoLayers)
open Cert.ReferenceIdeal.RefValue (segMean)

/-- The kernel program as printed runs to the end, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the two-layer network of the arguments in their result arrays. -/
theorem algebraic : Cert.algebraic_KernelIdeal_ReferenceIdeal := by
  intro m ρ m' ρ' _ hagree
  refine ⟨fun c => twoLayers segMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.result m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v64_eq, Cert.ReferenceIdeal.RefValue.v64_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
